-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S16x256 : Shape := ⟨2, ![16, 256]⟩
abbrev S16 : Shape := ⟨1, ![16]⟩
abbrev S512x16 : Shape := ⟨2, ![512, 16]⟩
abbrev S512 : Shape := ⟨1, ![512]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_
  bcast_S_S512x16 : S_.BroadcastsInDim S512x16 (![] : Fin 0 → Fin S512x16.rank)
  reducesTo_S512x16_S_d0_1 : S512x16.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x16 1) : IVec S_ 1 :=
  let main_c_5 : IVec S_ 1 := constantI S_ 1 1#1
  let main_v17 : IVec S_ 1 := (fun x v => Host.reduce IntOp.andi x v reducesTo_S512x16_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x256x64x64 .f32) (main_arg1 : FVec F S16x256 .f32) (main_arg2 : FVec F S16 .f32) (main_arg3 : FVec F S512x16 .f32) (main_arg4 : FVec F S512 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S512x16 .f32 := Host.absf main_arg3
  let main_cst_4 : FVec F S_ .f32 := constant S_ .f32 0x7F800000#32
  let main_v15 : FVec F S512x16 .f32 := broadcastInDim S512x16 ![] bcast_S_S512x16 main_cst_4
  let main_v16 : IVec S512x16 1 := cmpf .olt main_v14 main_v15
  fn_part1 (F := F) main_arg4 main_v13 main_v16
-- ==== Kernel.lean ====
abbrev S32x256x64x64 : Shape := ⟨4, ![32, 256, 64, 64]⟩
abbrev S16x256 : Shape := ⟨2, ![16, 256]⟩
abbrev S16 : Shape := ⟨1, ![16]⟩
abbrev S512x16 : Shape := ⟨2, ![512, 16]⟩
abbrev S512 : Shape := ⟨1, ![512]⟩
abbrev S32x256x4096 : Shape := ⟨3, ![32, 256, 4096]⟩
abbrev S32x256 : Shape := ⟨2, ![32, 256]⟩
abbrev S8x128x4096 : Shape := ⟨3, ![8, 128, 4096]⟩
abbrev S8x128 : Shape := ⟨2, ![8, 128]⟩
abbrev S256x16 : Shape := ⟨2, ![256, 16]⟩
abbrev S32x16 : Shape := ⟨2, ![32, 16]⟩
abbrev S1x16 : Shape := ⟨2, ![1, 16]⟩
abbrev S_ : Shape := ⟨0, ![]⟩
abbrev S16x512 : Shape := ⟨2, ![16, 512]⟩
abbrev S32x512 : Shape := ⟨2, ![32, 512]⟩
abbrev S1x512 : Shape := ⟨2, ![1, 512]⟩
abbrev S8x128x1024 : Shape := ⟨3, ![8, 128, 1024]⟩
abbrev S8x128x1 : Shape := ⟨3, ![8, 128, 1]⟩

abbrev nBuf : Space → Nat
  | .hbm => 32
  | .vmem => 12
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S16, .f32⟩
  | .hbm, ⟨3, _⟩ => ⟨S512x16, .f32⟩
  | .hbm, ⟨4, _⟩ => ⟨S512, .f32⟩
  | .hbm, ⟨5, _⟩ => ⟨S32x256x4096, .f32⟩
  | .hbm, ⟨6, _⟩ => ⟨S32x256, .f32⟩
  | .hbm, ⟨7, _⟩ => ⟨S256x16, .f32⟩
  | .hbm, ⟨8, _⟩ => ⟨S32x16, .f32⟩
  | .hbm, ⟨9, _⟩ => ⟨S1x16, .f32⟩
  | .hbm, ⟨10, _⟩ => ⟨S32x16, .f32⟩
  | .hbm, ⟨11, _⟩ => ⟨S32x16, .f32⟩
  | .hbm, ⟨12, _⟩ => ⟨S_, .f32⟩
  | .hbm, ⟨13, _⟩ => ⟨S32x16, .f32⟩
  | .hbm, ⟨14, _⟩ => ⟨S32x16, .f32⟩
  | .hbm, ⟨15, _⟩ => ⟨S16x512, .f32⟩
  | .hbm, ⟨16, _⟩ => ⟨S32x512, .f32⟩
  | .hbm, ⟨17, _⟩ => ⟨S1x512, .f32⟩
  | .hbm, ⟨18, _⟩ => ⟨S32x512, .f32⟩
  | .hbm, ⟨19, _⟩ => ⟨S32x512, .f32⟩
  | .hbm, ⟨20, _⟩ => ⟨S32x256, .f32⟩
  | .hbm, ⟨21, _⟩ => ⟨S32x256, .f32⟩
  | .hbm, ⟨22, _⟩ => ⟨S32x256, .f32⟩
  | .hbm, ⟨23, _⟩ => ⟨S32x256, .f32⟩
  | .hbm, ⟨24, _⟩ => ⟨S_, .f32⟩
  | .hbm, ⟨25, _⟩ => ⟨S32x256, .f32⟩
  | .hbm, ⟨26, _⟩ => ⟨S32x256, .f32⟩
  | .hbm, ⟨27, _⟩ => ⟨S_, .f32⟩
  | .hbm, ⟨28, _⟩ => ⟨S32x256, .f32⟩
  | .hbm, ⟨29, _⟩ => ⟨S32x256, .f32⟩
  | .hbm, ⟨30, _⟩ => ⟨S32x256x4096, .f32⟩
  | .hbm, ⟨31, _⟩ => ⟨S32x256x64x64, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | .local _ .vmem, ⟨4, _⟩ => ⟨S8x128x1024, .f32⟩
  | .local _ .vmem, ⟨5, _⟩ => ⟨S8x128x1024, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128x1024, .f32⟩
  | .local _ .vmem, ⟨11, _⟩ => ⟨S8x128x1024, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![4, 2, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S8x128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S8x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

class Facts₀ : Prop where
  shapeCasts_S32x256x64x64_S32x256x4096 : S32x256x64x64.ShapeCasts S32x256x4096
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  transposes_S16x256_S256x16_1_0 : S16x256.Transposes [1, 0] S256x16
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  transposes_S512x16_S16x512_1_0 : S512x16.Transposes [1, 0] S16x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  slices_S32x512_S32x256_0_0 : S32x512.Slices ![0, 0] S32x256
  slices_S32x512_S32x256_0_256 : S32x512.Slices ![0, 256] S32x256
  bcast_S_S32x256 : S_.BroadcastsInDim S32x256 (![] : Fin 0 → Fin S32x256.rank)
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  shapeCasts_S8x128_S8x128 : S8x128.ShapeCasts S8x128
  shapeCasts_S8x128_S8x128x1 : S8x128.ShapeCasts S8x128x1
  broadcasts_S8x128x1_S8x128x1024 : S8x128x1.Broadcasts S8x128x1024
  shapeCasts_S32x256x4096_S32x256x64x64 : S32x256x4096.ShapeCasts S32x256x64x64
  dot_S32x256_S256x16_S32x16_1_0_0_1_n_n_wf : DotDims.WF S32x256 S256x16 S32x16 [1] [0] [0] [1] [] []
  dot_S32x16_S16x512_S32x512_1_0_0_1_n_n_wf : DotDims.WF S32x16 S16x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S32x256x4096.size a
  hwx0_0 : ∀ i : grid0.Coords, EltTy.bits .f32 = 32 ∨ (Rect.block (s := S32x256x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x256.size a
  hwx0_1 : ∀ i : grid0.Coords, EltTy.bits .f32 = 32 ∨ (Rect.block (s := S32x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x1024.size a ≤ S32x256x4096.size a
  hwx1_0 : ∀ i : grid1.Coords, EltTy.bits .f32 = 32 ∨ (Rect.block (s := S32x256x4096) S8x128x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S32x256.size a
  hwx1_1 : ∀ i : grid1.Coords, EltTy.bits .f32 = 32 ∨ (Rect.block (s := S32x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S32x256.size a
  hwx1_2 : ∀ i : grid1.Coords, EltTy.bits .f32 = 32 ∨ (Rect.block (s := S32x256) S8x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x128x1024.size a ≤ S32x256x4096.size a
  hwx1_3 : ∀ i : grid1.Coords, EltTy.bits .f32 = 32 ∨ (Rect.block (s := S32x256x4096) S8x128x1024.size (cc1_transform_3 i) (hinb1_3 i)).WholeWords (EltTy.packing .f32)

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf

abbrev win0_0 : Pipeline.Window sig grid0 :=
  Pipeline.Window.ofSpec (Memref.whole main_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S8x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S8x128x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S16x256 : Shape := ⟨2, ![16, 256]⟩
abbrev S16 : Shape := ⟨1, ![16]⟩
abbrev S512x16 : Shape := ⟨2, ![512, 16]⟩
abbrev S512 : Shape := ⟨1, ![512]⟩
abbrev S_ : Shape := ⟨0, ![]⟩
abbrev S32x256 : Shape := ⟨2, ![32, 256]⟩
abbrev S256x16 : Shape := ⟨2, ![256, 16]⟩
abbrev S32x16 : Shape := ⟨2, ![32, 16]⟩
abbrev S1x16 : Shape := ⟨2, ![1, 16]⟩
abbrev S16x512 : Shape := ⟨2, ![16, 512]⟩
abbrev S32x512 : Shape := ⟨2, ![32, 512]⟩
abbrev S1x512 : Shape := ⟨2, ![1, 512]⟩
abbrev S32x256x1x1 : Shape := ⟨4, ![32, 256, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S16x256, .f32⟩
  | .hbm, ⟨2, _⟩ => ⟨S16, .f32⟩
  | .hbm, ⟨3, _⟩ => ⟨S512x16, .f32⟩
  | .hbm, ⟨4, _⟩ => ⟨S512, .f32⟩
  | .hbm, ⟨5, _⟩ => ⟨S_, .f32⟩
  | .hbm, ⟨6, _⟩ => ⟨S32x256, .f32⟩
  | .hbm, ⟨7, _⟩ => ⟨S_, .f32⟩
  | .hbm, ⟨8, _⟩ => ⟨S32x256, .f32⟩
  | .hbm, ⟨9, _⟩ => ⟨S32x256, .f32⟩
  | .hbm, ⟨10, _⟩ => ⟨S256x16, .f32⟩
  | .hbm, ⟨11, _⟩ => ⟨S32x16, .f32⟩
  | .hbm, ⟨12, _⟩ => ⟨S1x16, .f32⟩
  | .hbm, ⟨13, _⟩ => ⟨S32x16, .f32⟩
  | .hbm, ⟨14, _⟩ => ⟨S32x16, .f32⟩
  | .hbm, ⟨15, _⟩ => ⟨S_, .f32⟩
  | .hbm, ⟨16, _⟩ => ⟨S32x16, .f32⟩
  | .hbm, ⟨17, _⟩ => ⟨S32x16, .f32⟩
  | .hbm, ⟨18, _⟩ => ⟨S16x512, .f32⟩
  | .hbm, ⟨19, _⟩ => ⟨S32x512, .f32⟩
  | .hbm, ⟨20, _⟩ => ⟨S1x512, .f32⟩
  | .hbm, ⟨21, _⟩ => ⟨S32x512, .f32⟩
  | .hbm, ⟨22, _⟩ => ⟨S32x512, .f32⟩
  | .hbm, ⟨23, _⟩ => ⟨S32x256, .f32⟩
  | .hbm, ⟨24, _⟩ => ⟨S32x256, .f32⟩
  | .hbm, ⟨25, _⟩ => ⟨S32x256, .f32⟩
  | .hbm, ⟨26, _⟩ => ⟨S32x256, .f32⟩
  | .hbm, ⟨27, _⟩ => ⟨S_, .f32⟩
  | .hbm, ⟨28, _⟩ => ⟨S32x256, .f32⟩
  | .hbm, ⟨29, _⟩ => ⟨S32x256, .f32⟩
  | .hbm, ⟨30, _⟩ => ⟨S_, .f32⟩
  | .hbm, ⟨31, _⟩ => ⟨S32x256, .f32⟩
  | .hbm, ⟨32, _⟩ => ⟨S32x256, .f32⟩
  | .hbm, ⟨33, _⟩ => ⟨S32x256x1x1, .f32⟩
  | .hbm, ⟨34, _⟩ => ⟨S32x256x1x1, .f32⟩
  | .hbm, ⟨35, _⟩ => ⟨S32x256x64x64, .f32⟩
  | .hbm, ⟨36, _⟩ => ⟨S32x256x64x64, .f32⟩
  | .hbm, ⟨37, _⟩ => ⟨S32x256x64x64, .f32⟩
  | .hbm, ⟨38, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  transposes_S16x256_S256x16_1_0 : S16x256.Transposes [1, 0] S256x16
  bcast_S16_S1x16_1 : S16.BroadcastsInDim S1x16 (![1] : Fin 1 → Fin S1x16.rank)
  bcast_S1x16_S32x16_0_1 : S1x16.BroadcastsInDim S32x16 (![0, 1] : Fin 2 → Fin S32x16.rank)
  bcast_S_S32x16 : S_.BroadcastsInDim S32x16 (![] : Fin 0 → Fin S32x16.rank)
  transposes_S512x16_S16x512_1_0 : S512x16.Transposes [1, 0] S16x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  slices_S32x512_S32x256_0_0 : S32x512.Slices ![0, 0] S32x256
  slices_S32x512_S32x256_0_256 : S32x512.Slices ![0, 256] S32x256
  bcast_S32x256_S32x256x1x1_0_1 : S32x256.BroadcastsInDim S32x256x1x1 (![0, 1] : Fin 2 → Fin S32x256x1x1.rank)
  bcast_S32x256x1x1_S32x256x64x64_0_1_2_3 : S32x256x1x1.BroadcastsInDim S32x256x64x64 (![0, 1, 2, 3] : Fin 4 → Fin S32x256x64x64.rank)
  dot_S32x256_S256x16_S32x16_1_0_0_1_n_n_wf : DotDims.WF S32x256 S256x16 S32x16 [1] [0] [0] [1] [] []
  dot_S32x16_S16x512_S32x512_1_0_0_1_n_n_wf : DotDims.WF S32x16 S16x512 S32x512 [1] [0] [0] [1] [] []

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x512_S32x512_1_0_0_1_n_n : DotDims S32x16 S16x512 S32x512 where
  lhsContracting := [1]
  rhsContracting := [0]
  lhsNonContracting := [0]
  rhsNonContracting := [1]
  lhsBatch := []
  rhsBatch := []
  wf := dot_S32x16_S16x512_S32x512_1_0_0_1_n_n_wf

class Facts : Prop extends Facts₀ where

variable [Facts]
-- ==== Proof.KernelRun.lean ====
/-
  The idealized kernel program's run with its RESULT named. @main is seven segments: a host stretch (the re-laying of the
  input), the pooling region, three host stretches (the excitation), the affine region, a host stretch (the re-laying of the
  output). Every weakly fair execution terminates; the last thread state holds every unscoped buffer at the last
  boundary's contents (`Gen.W7`: the fold of the host stretches and of the two regions' write-backs from the launch
  memory), and read against the final memory it gives the result buffer at those contents and the five argument arrays
  as launched.
-/
import proofs.«168831_j13889924235857_2_alg».proof.Proof.Gen.KernelIdeal.Frame

set_option maxRecDepth 16384

noncomputable section

namespace Cert.SE

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments end as launched. -/
theorem kernel_run : θ_run defs (onTc (τ := τ) (main (F := F))) ⟨m, fun _ => 0, ρ⟩ (fun r => ∀ c : Dev nD,
      r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.SE

end
-- ==== Proof.LibFusedAxis.lean ====
/-
  Two trailing axes of extents `h` and `w` laid out as ONE axis of extent `h * w` (row-major: position `p * w + q`).

  * a rank-4 array `[a, b, h, w]` re-laid as `[a, b, h * w]`, and back, read at one entry;
  * a sum over the fused axis is the double sum over the two axes;
  * at the extended reals: the sum of a `[a, b, h, w]` array over its last two axes, as a host reduction takes it from an
    initial value, read at `(n, c)`; and a lane sum of a `[a, b, k]` array over its last axis read at `(n, c)`.

  Nothing here needs a finite entry: only re-indexing of finite sums.
-/
import Idealize.ShloMosaic.PureOps.Ideal.Laws
import Idealize.ShloMosaic.Lib.ValueIdx
import Idealize.ShloMosaic.Lib.Pipeline.Value

noncomputable section

namespace Cert.Lib.FusedAxis

open Idealize.ShloMosaic Idealize.ShloMosaic.ValueIdx

variable {α : Type}

/-- The position of `(p, q)` on the fused axis is below its extent. -/
theorem fused_lt {h w : ℕ} (p : Fin h) (q : Fin w) : p.val * w + q.val < h * w := by
  have hp := p.isLt; have hq := q.isLt
  calc p.val * w + q.val < p.val * w + w := by omega
    _ = (p.val + 1) * w := by rw [Nat.add_mul, Nat.one_mul]
    _ ≤ h * w := Nat.mul_le_mul_right w hp

/-- The entry `(p, q)` of the two axes as a position on the fused axis. -/
def fuse {h w : ℕ} (p : Fin h) (q : Fin w) : Fin (h * w) := ⟨p.val * w + q.val, fused_lt p q⟩

/-- A sum over the fused axis is the double sum over the two axes it fuses. -/
theorem sum_fused {M : Type*} [AddCommMonoid M] {h w : ℕ} (f : Fin (h * w) → M) :
    ∑ k : Fin (h * w), f k = ∑ p : Fin h, ∑ q : Fin w, f (fuse p q) := by
  rw [← Fintype.sum_prod_type' (f := fun p q => f (fuse p q))]
  refine (Fintype.sum_equiv finProdFinEquiv _ _ fun pq => ?_).symm
  refine congrArg f (Fin.ext ?_)
  show pq.1.val * w + pq.2.val = pq.2.val + w * pq.1.val
  rw [Nat.mul_comm, Nat.add_comm]

/-- `[a, b, h, w]` re-laid as `[a, b, h * w]`: the entry `(n, c, p * w + q)` is the operand's `(n, c, p, q)`. -/
theorem shapeCast_fuse_apply {a b h w hw : ℕ} (x : (⟨4, ![a, b, h, w]⟩ : Shape).Idx → α)
    (hc : (⟨4, ![a, b, h, w]⟩ : Shape).ShapeCasts ⟨3, ![a, b, hw]⟩) (n : Fin a) (c : Fin b) (p : Fin h) (q : Fin w)
    (k : Fin hw) (hk : k.val = p.val * w + q.val) (e : hw = h * w) :
    shapeCast ⟨3, ![a, b, hw]⟩ x hc (ix3 n c k) = x (ix4 n c p q) :=
  shapeCast_apply x hc _ _ (by
    rw [Shape.rowMajor_val_four, Shape.rowMajor_val_three]
    show ((n.val * b + c.val) * h + p.val) * w + q.val = (n.val * b + c.val) * hw + k.val
    rw [hk, e]; ring)

/-- `[a, b, h * w]` re-laid as `[a, b, h, w]`: the entry `(n, c, p, q)` is the operand's `(n, c, p * w + q)`. -/
theorem shapeCast_split_apply {a b h w hw : ℕ} (y : (⟨3, ![a, b, hw]⟩ : Shape).Idx → α)
    (hc : (⟨3, ![a, b, hw]⟩ : Shape).ShapeCasts ⟨4, ![a, b, h, w]⟩) (n : Fin a) (c : Fin b) (p : Fin h) (q : Fin w)
    (k : Fin hw) (hk : k.val = p.val * w + q.val) (e : hw = h * w) :
    shapeCast ⟨4, ![a, b, h, w]⟩ y hc (ix4 n c p q) = y (ix3 n c k) :=
  shapeCast_apply y hc _ _ (by
    rw [Shape.rowMajor_val_four, Shape.rowMajor_val_three]
    show (n.val * b + c.val) * hw + k.val = ((n.val * b + c.val) * h + p.val) * w + q.val
    rw [hk, e]; ring)

/-- The host's sum of a `[a, b, h, w]` array over its last two axes from an initial value, read at `(n, c)`: the initial
    value plus the double sum of the entries `(n, c, p, q)`. -/
theorem hostReduceAdd_last2 {a b h w : ℕ} (hr : (⟨4, ![a, b, h, w]⟩ : Shape).ReducesTo [2, 3] ⟨2, ![a, b]⟩)
    (x : (⟨4, ![a, b, h, w]⟩ : Shape).Idx → EReal) (init : EReal) (n : Fin a) (c : Fin b) :
    Ideal.hostReduceAdd hr x init (ix2 n c) = init + ∑ p : Fin h, ∑ q : Fin w, x (ix4 n c p q) := by
  unfold Ideal.hostReduceAdd
  refine congrArg (init + ·) ?_
  rw [← Fintype.sum_prod_type' (f := fun p q => x (ix4 n c p q))]
  symm
  have d0 : ∀ i : (⟨4, ![a, b, h, w]⟩ : Shape).Idx, (hr.drop i (0 : Fin 2) : ℕ) = (i (0 : Fin 4) : ℕ) :=
    fun i => rfl
  have d1 : ∀ i : (⟨4, ![a, b, h, w]⟩ : Shape).Idx, (hr.drop i (1 : Fin 2) : ℕ) = (i (1 : Fin 4) : ℕ) :=
    fun i => rfl
  refine Finset.sum_nbij' (fun pq : Fin h × Fin w => ix4 n c pq.1 pq.2)
    (fun i : (⟨4, ![a, b, h, w]⟩ : Shape).Idx => ((i (2 : Fin 4) : Fin h), (i (3 : Fin 4) : Fin w))) ?_ ?_ ?_ ?_ ?_
  · intro pq _
    refine Finset.mem_filter.mpr ⟨Finset.mem_univ _, funext fun d => Fin.ext ?_⟩
    match d with
    | ⟨0, _⟩ => exact d0 _
    | ⟨1, _⟩ => exact d1 _
  · intro i _; exact Finset.mem_univ _
  · intro pq _; rfl
  · intro i hi
    have hd := (Finset.mem_filter.mp hi).2
    have e0 : (i (0 : Fin 4) : ℕ) = n.val := (d0 i).symm.trans (congrArg (fun j : (⟨2, ![a, b]⟩ : Shape).Idx => (j (0 : Fin 2) : ℕ)) hd)
    have e1 : (i (1 : Fin 4) : ℕ) = c.val := (d1 i).symm.trans (congrArg (fun j : (⟨2, ![a, b]⟩ : Shape).Idx => (j (1 : Fin 2) : ℕ)) hd)
    funext d
    apply Fin.ext
    match d with
    | ⟨0, _⟩ => exact e0.symm
    | ⟨1, _⟩ => exact e1.symm
    | ⟨2, _⟩ => rfl
    | ⟨3, _⟩ => rfl
  · intro pq _; rfl

/-- A lane sum of a `[a, b, k]` array over its last axis, read at `(n, c)`: the sum of the entries `(n, c, j)`. -/
theorem multiReduction_add_last {a b k : ℕ} (src : FVec Ideal ⟨3, ![a, b, k]⟩ .f32) (acc : BitVec 32)
    (hr : (⟨3, ![a, b, k]⟩ : Shape).Reduces [2] ⟨2, ![a, b]⟩) (hφ : FKind.Formats .f32)
    (hacc : acc = FKind.add.neutral .f32 hφ) (n : Fin a) (c : Fin b) :
    multiReduction .add [2] ⟨2, ![a, b]⟩ src acc hr hφ hacc (ix2 n c) = ∑ j : Fin k, src (ix3 n c j) := by
  refine (Ideal.multiReduction_add_single src acc hr hφ hacc (ix2 n c)).trans ?_
  refine Finset.sum_congr rfl fun j _ => congrArg src ?_
  funext d
  apply Fin.ext
  match d with
  | ⟨0, _⟩ => rfl
  | ⟨1, _⟩ => rfl
  | ⟨2, _⟩ => rfl

end Cert.Lib.FusedAxis

end
-- ==== Proof.PoolPayload.lean ====
/-
  What one grid point of the pooling kernel stores, read at one entry: the block's row `(p, q)` summed along its
  4096 lanes, times the word `0x39800000` (= 2⁻¹²: the reciprocal of 64 · 64, an exact power of two).
-/
import proofs.«168831_j13889924235857_2_alg».proof.Proof.Gen.KernelIdeal.Skeleton
import proofs.«168831_j13889924235857_2_alg».proof.Proof.LibFusedAxis

noncomputable section

namespace Cert.SE

open Idealize.ShloMosaic Idealize.ShloMosaic.ValueIdx Cert.KernelIdeal Cert.KernelIdeal.Gen

/-- The pooled value of row `(p, q)` of a block: the sum of its 4096 entries times 2⁻¹². -/
theorem pool_payload_apply (x0 : Vec Ideal S8x128x4096 .f32) (p : Fin 8) (q : Fin 128) :
    k0_pay1 (F := Ideal) x0 (ix2 p q) = (∑ j : Fin 4096, x0 (ix3 p q j)) * Ideal.ofBits .f32 0x39800000#32 := by
  unfold k0_pay1
  rw [shapeCast_self]
  exact congrArg (· * Ideal.ofBits .f32 0x39800000#32)
    (Cert.Lib.FusedAxis.multiReduction_add_last (a := 8) (b := 128) (k := 4096) x0 0x00000000#32 _ _ _ p q)

end Cert.SE

end
-- ==== Proof.PoolArray.lean ====
/-
  The pooling region, from blocks to the array. Its grid is 4 × 2; point (i, j) reads the block of rows
  `8 i … 8 i + 7`, channels `128 j … 128 j + 127`, all 4096 positions, of the re-laid input, and writes back the same rows
  and channels of the pooled array. The blocks written back tile the `[32, 256]` array, each is the restriction of ONE
  function of the re-laid input — `pooled`: the 4096 entries of row `(n, c)` summed, times 2⁻¹² —, so after the last
  point the array holds `pooled` of what the region found in its input, whatever that was (`V`). The input array is
  never written back and ends as found.
-/
import proofs.«168831_j13889924235857_2_alg».proof.Proof.Gen.KernelIdeal.Frame
import proofs.«168831_j13889924235857_2_alg».proof.Proof.PoolPayload
import Idealize.ShloMosaic.PureOps.Ideal
import Idealize.ShloMosaic.Lib.Pipeline.Value

set_option maxRecDepth 16384

noncomputable section

namespace Cert.SE

open Idealize.ShloMosaic Idealize.ShloMosaic.TcCoe Idealize.SL.Sem Idealize.ShloMosaic.ValueIdx
open Idealize.ShloMosaic.Pipeline (Dat)
open Cert.KernelIdeal Cert.KernelIdeal.Gen

/-- Row `(n, c)` of a `[32, 256, 4096]` array pooled: its 4096 entries summed, times 2⁻¹². -/
def pooled (X : S32x256x4096.Idx → EReal) : S32x256.Idx → EReal :=
  fun i => (∑ j : Fin 4096, X (ix3 (i 0 : Fin 32) (i 1 : Fin 256) j)) * Ideal.ofBits .f32 0x39800000#32

variable (V : (c : Dev nD) → (b : Ref sig .tc) → Buf (Elt Ideal) ((c : Thread nD τ).loc b))

theorem zero2 : (![0, 0] : Fin 2 → Nat) = fun _ => 0 := funext fun a => by fin_cases a <;> rfl
theorem zero3 : (![0, 0, 0] : Fin 3 → Nat) = fun _ => 0 := funext fun a => by fin_cases a <;> rfl

/-- The block indices over the grid: the input's rows and channels move with the output's, its position block is
    always the first, and the output's block indices stay below 4 and 2. -/
theorem pool_idx_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 3 ∧ win0_1.index t (1 : Fin 2) ≤ 1 :=
  (by decide +kernel : ∀ t : Fin grid0.N, _)

/-- Every block of the pooled array is some point's. -/
theorem pool_idx_onto : ∀ (q0 : Fin 4) (q1 : Fin 2), ∃ t : Fin cfg0.N, win0_1.index t = ![q0.val, q1.val] :=
  (by decide +kernel : ∀ (q0 : Fin 4) (q1 : Fin 2), ∃ t : Fin grid0.N, win0_1.index t = ![q0.val, q1.val])

/-- The input window is never written back. -/
theorem pool_in_noflush : ∀ t : Fin cfg0.N, (cfg0.win 0).flush t = false :=
  (by decide +kernel : ∀ t : Fin grid0.N, win0_0.flush t = false)

/-- What point `t` writes back is block `t` of `pooled` of the input array as the region finds it. -/
theorem pool_flushed (c : Dev nD) (t : Fin cfg0.N) :
    (dat0 V c).flushed 1 t = ((cfg0.win 1).blk t).view.read (Elt Ideal) (pooled (V c main_v0)) := by
  show (cfg0.win 1).cut (grid0.coords t) ((dat0 V c).after 1 t) = _
  rw [after0_1]
  unfold out0_1
  rw [View.canon_unit_zero zero2]
  simp only [View.ld_unit_zero (S := S8x128x4096) zero3]
  obtain ⟨e0, e1, e2, -, -⟩ := pool_idx_facts t
  funext y
  obtain ⟨p, q, rfl⟩ : ∃ (p : Fin 8) (q : Fin 128), y = ix2 p q := ⟨y 0, y 1, eq_ix2 y⟩
  show k0_pay1 (F := Ideal) (iblk0 V c 0 t) (ix2 p q) = pooled (V c main_v0) (((cfg0.win 1).blk t).view.emb (ix2 p q))
  refine (pool_payload_apply (iblk0 V c 0 t) p q).trans ?_
  unfold pooled
  refine congrArg (· * Ideal.ofBits .f32 0x39800000#32) (Finset.sum_congr rfl fun j _ => ?_)
  show (V c main_v0 : S32x256x4096.Idx → EReal) (((cfg0.win 0).blk t).view.emb (ix3 p q j)) = (V c main_v0 : S32x256x4096.Idx → EReal) _
  refine congrArg (V c main_v0 : S32x256x4096.Idx → EReal) (funext fun a => Fin.ext ?_)
  match a with
  | ⟨0, _⟩ => show win0_0.index t (0 : Fin 3) * 8 + 1 * p.val = win0_1.index t (0 : Fin 2) * 8 + 1 * p.val; omega
  | ⟨1, _⟩ => show win0_0.index t (1 : Fin 3) * 128 + 1 * q.val = win0_1.index t (1 : Fin 2) * 128 + 1 * q.val; omega
  | ⟨2, _⟩ => show win0_0.index t (2 : Fin 3) * 4096 + 1 * j.val = j.val; omega

/-- An entry of the pooled array is in point `t`'s block iff each coordinate is in the block's range. -/
theorem pool_mem_blk (t : Fin cfg0.N) (i : S32x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- The blocks written back cover the pooled array: entry `(n, c)` is in the block of point `(n / 8, c / 128)`. -/
theorem pool_cover (i : S32x256.Idx) :
    ∃ t : Fin cfg0.N, (cfg0.win 1).flush t = true ∧ i ∈ ((cfg0.win 1).blk t).view.set := by
  have hi0 : (i 0).val < 32 := (i 0).isLt
  have hi1 : (i 1).val < 256 := (i 1).isLt
  obtain ⟨t, ht⟩ := pool_idx_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [pool_mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- THE POOLED ARRAY after the region: `pooled` of the input array as the region found it. -/
theorem pool_array (c : Dev nD) : (dat0 V c).arrAt 1 cfg0.N = pooled (V c main_v0) :=
  (dat0 V c).arrAt_eq_of_cover 1 (pooled (V c main_v0)) (fun t _ => pool_flushed V c t) pool_cover

/-- The input array after the region is as the region found it. -/
theorem pool_input_kept (c : Dev nD) : (dat0 V c).arrAt 0 cfg0.N = V c main_v0 :=
  funext fun i => ((dat0 V c).arrAt_apply_of_forall_not_mem 0 cfg0.N i
    (fun t _ hf => absurd hf (by rw [pool_in_noflush t]; decide))).trans (congrFun (A_eq0 V c 0) i)

end Cert.SE

end
-- ==== Proof.LibTrailingUnit.lean ====
/-
  A trailing unit axis: `[a, b]` re-laid as `[a, b, 1]` read at `(p, q, 0)`, and `[a, b, 1]` broadcast along the new axis to
  `[a, b, k]` read at `(p, q, j)` — the two steps by which a per-row quantity `s[:, :, None]` meets a `[a, b, k]` array.
  Over any extents and any element type.
-/
import Idealize.ShloMosaic.Lib.ValueIdx
import Idealize.ShloMosaic.Lib.Pipeline.Value

noncomputable section

namespace Cert.Lib.TrailingUnit

open Idealize.ShloMosaic Idealize.ShloMosaic.ValueIdx

variable {α : Type}

/-- `[a, b]` re-laid as `[a, b, 1]`: the entry `(p, q, u)` is the operand's `(p, q)`. -/
theorem shapeCast_addLast_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast along its last axis to `[a, b, k]`: the entry `(p, q, j)` is the operand's `(p, q, 0)`. -/
theorem broadcastTo_last_apply {a b k : ℕ} (x : (⟨3, ![a, b, 1]⟩ : Shape).Idx → α)
    (h : (⟨3, ![a, b, 1]⟩ : Shape).Broadcasts ⟨3, ![a, b, k]⟩) (p : Fin a) (q : Fin b) (j : Fin k) :
    broadcastTo ⟨3, ![a, b, k]⟩ x h (ix3 p q j) = x (ix3 p q (0 : Fin 1)) :=
  broadcastTo_apply x h _ _ (fun d => by
    match d with
    | ⟨0, _⟩ =>
      show p.val = if a = 1 then 0 else p.val
      split_ifs with h1
      · have := p.isLt; omega
      · rfl
    | ⟨1, _⟩ =>
      show q.val = if b = 1 then 0 else q.val
      split_ifs with h1
      · have := q.isLt; omega
      · rfl
    | ⟨2, _⟩ => rfl)

end Cert.Lib.TrailingUnit

end
-- ==== Proof.AffinePayload.lean ====
/-
  What one grid point of the affine kernel stores, read at one entry `(p, q, j)` of its `[8, 128, 1024]` block: the
  block's scale at row `(p, q)` times the entry, plus the block's shift at row `(p, q)` — the two `[8, 128]` blocks
  re-laid as `[8, 128, 1]` and broadcast along the lanes.
-/
import proofs.«168831_j13889924235857_2_alg».proof.Proof.Gen.KernelIdeal.Skeleton
import proofs.«168831_j13889924235857_2_alg».proof.Proof.LibTrailingUnit

noncomputable section

namespace Cert.SE

open Idealize.ShloMosaic Idealize.ShloMosaic.ValueIdx Cert.KernelIdeal Cert.KernelIdeal.Gen

/-- Entry `(p, q, j)` of the stored block: `scale (p, q) · x (p, q, j) + shift (p, q)`. -/
theorem affine_payload_apply (x0 : Vec Ideal S8x128x1024 .f32) (sc sh : Vec Ideal S8x128 .f32)
    (p : Fin 8) (q : Fin 128) (j : Fin 1024) :
    k1_pay1 (F := Ideal) x0 sc sh (ix3 p q j) = sc (ix2 p q) * x0 (ix3 p q j) + sh (ix2 p q) := by
  unfold k1_pay1
  simp only [shapeCast_self]
  show broadcastTo S8x128x1024 (shapeCast S8x128x1 sc _) _ (ix3 p q j) * x0 (ix3 p q j)
      + broadcastTo S8x128x1024 (shapeCast S8x128x1 sh _) _ (ix3 p q j) = _
  rw [Cert.Lib.TrailingUnit.broadcastTo_last_apply (a := 8) (b := 128) (k := 1024),
    Cert.Lib.TrailingUnit.broadcastTo_last_apply (a := 8) (b := 128) (k := 1024),
    Cert.Lib.TrailingUnit.shapeCast_addLast_apply (a := 8) (b := 128),
    Cert.Lib.TrailingUnit.shapeCast_addLast_apply (a := 8) (b := 128)]

end Cert.SE

end
-- ==== Proof.AffineArray.lean ====
/-
  The affine region, from blocks to the array. Its grid is 4 × 2 × 4; point (i, j, l) reads rows `8 i …`, channels
  `128 j …`, positions `1024 l …` of the re-laid input, and rows `8 i …`, channels `128 j …` of the scale and of the shift, and
  writes back the same rows, channels and positions of the output. The blocks written back tile the `[32, 256, 4096]`
  array and each is the restriction of ONE function — `affine`: entry `(n, c, k)` is `scale (n, c) · x (n, c, k) + shift (n, c)`
  — of the three arrays as the region finds them, whatever they are (`V`).
-/
import proofs.«168831_j13889924235857_2_alg».proof.Proof.Gen.KernelIdeal.Frame
import proofs.«168831_j13889924235857_2_alg».proof.Proof.AffinePayload
import Idealize.ShloMosaic.PureOps.Ideal
import Idealize.ShloMosaic.Lib.Pipeline.Value

set_option maxRecDepth 16384

noncomputable section

namespace Cert.SE

open Idealize.ShloMosaic Idealize.ShloMosaic.TcCoe Idealize.SL.Sem Idealize.ShloMosaic.ValueIdx
open Idealize.ShloMosaic.Pipeline (Dat)
open Cert.KernelIdeal Cert.KernelIdeal.Gen

/-- Entry `(n, c, k)` of the scaled and shifted array: `scale (n, c) · x (n, c, k) + shift (n, c)`. -/
def affine (X : S32x256x4096.Idx → EReal) (SC SH : S32x256.Idx → EReal) : S32x256x4096.Idx → EReal :=
  fun i => SC (ix2 (i 0 : Fin 32) (i 1 : Fin 256)) * X i + SH (ix2 (i 0 : Fin 32) (i 1 : Fin 256))

variable (V : (c : Dev nD) → (b : Ref sig .tc) → Buf (Elt Ideal) ((c : Thread nD τ).loc b))

theorem zero2' : (![0, 0] : Fin 2 → Nat) = fun _ => 0 := funext fun a => by fin_cases a <;> rfl
theorem zero3' : (![0, 0, 0] : Fin 3 → Nat) = fun _ => 0 := funext fun a => by fin_cases a <;> rfl

/-- The block indices over the grid: every input's block moves with the output's on the axes it has, and the
    output's block indices stay below 4, 2 and 4. -/
theorem affine_idx_facts : ∀ t : Fin cfg1.N, win1_0.index t (0 : Fin 3) = win1_3.index t (0 : Fin 3)
    ∧ win1_0.index t (1 : Fin 3) = win1_3.index t (1 : Fin 3)
    ∧ win1_0.index t (2 : Fin 3) = win1_3.index t (2 : Fin 3)
    ∧ win1_1.index t (0 : Fin 2) = win1_3.index t (0 : Fin 3)
    ∧ win1_1.index t (1 : Fin 2) = win1_3.index t (1 : Fin 3)
    ∧ win1_2.index t (0 : Fin 2) = win1_3.index t (0 : Fin 3)
    ∧ win1_2.index t (1 : Fin 2) = win1_3.index t (1 : Fin 3)
    ∧ win1_3.index t (0 : Fin 3) ≤ 3 ∧ win1_3.index t (1 : Fin 3) ≤ 1 ∧ win1_3.index t (2 : Fin 3) ≤ 3 :=
  (by decide +kernel : ∀ t : Fin grid1.N, _)

/-- Every block of the output array is some point's. -/
theorem affine_idx_onto : ∀ (q0 : Fin 4) (q1 : Fin 2) (q2 : Fin 4), ∃ t : Fin cfg1.N, win1_3.index t = ![q0.val, q1.val, q2.val] :=
  (by decide +kernel : ∀ (q0 : Fin 4) (q1 : Fin 2) (q2 : Fin 4), ∃ t : Fin grid1.N, win1_3.index t = ![q0.val, q1.val, q2.val])

/-- What point `t` writes back is block `t` of `affine` of the three arrays as the region finds them. -/
theorem affine_flushed (c : Dev nD) (t : Fin cfg1.N) :
    (dat1 V c).flushed 3 t
      = ((cfg1.win 3).blk t).view.read (Elt Ideal) (affine (V c main_v0) (V c main_v20) (V c main_v14)) := by
  show (cfg1.win 3).cut (grid1.coords t) ((dat1 V c).after 3 t) = _
  rw [after1_3]
  unfold out1_3
  rw [View.canon_unit_zero zero3']
  simp only [View.ld_unit_zero (S := S8x128x1024) zero3', View.ld_unit_zero (S := S8x128) zero2']
  obtain ⟨a0, a1, a2, b0, b1, c0, c1, -, -, -⟩ := affine_idx_facts t
  funext y
  obtain ⟨p, q, j, rfl⟩ : ∃ (p : Fin 8) (q : Fin 128) (j : Fin 1024), y = ix3 p q j := ⟨y 0, y 1, y 2, eq_ix3 y⟩
  show k1_pay1 (F := Ideal) (iblk1 V c 0 t) (iblk1 V c 1 t) (iblk1 V c 2 t) (ix3 p q j)
    = affine (V c main_v0) (V c main_v20) (V c main_v14) (((cfg1.win 3).blk t).view.emb (ix3 p q j))
  refine (affine_payload_apply (iblk1 V c 0 t) (iblk1 V c 1 t) (iblk1 V c 2 t) p q j).trans ?_
  have hx : iblk1 V c 0 t (ix3 p q j)
      = (V c main_v0 : S32x256x4096.Idx → EReal) (((cfg1.win 3).blk t).view.emb (ix3 p q j)) := by
    show (V c main_v0 : S32x256x4096.Idx → EReal) (((cfg1.win 0).blk t).view.emb (ix3 p q j)) = _
    refine congrArg (V c main_v0 : S32x256x4096.Idx → EReal) (funext fun a => Fin.ext ?_)
    match a with
    | ⟨0, _⟩ => show win1_0.index t (0 : Fin 3) * 8 + 1 * p.val = win1_3.index t (0 : Fin 3) * 8 + 1 * p.val; omega
    | ⟨1, _⟩ => show win1_0.index t (1 : Fin 3) * 128 + 1 * q.val = win1_3.index t (1 : Fin 3) * 128 + 1 * q.val; omega
    | ⟨2, _⟩ => show win1_0.index t (2 : Fin 3) * 1024 + 1 * j.val = win1_3.index t (2 : Fin 3) * 1024 + 1 * j.val; omega
  have hsc : iblk1 V c 1 t (ix2 p q)
      = (V c main_v20 : S32x256.Idx → EReal) (ix2 ((((cfg1.win 3).blk t).view.emb (ix3 p q j)) 0 : Fin 32) ((((cfg1.win 3).blk t).view.emb (ix3 p q j)) 1 : Fin 256)) := by
    show (V c main_v20 : S32x256.Idx → EReal) (((cfg1.win 1).blk t).view.emb (ix2 p q)) = _
    refine congrArg (V c main_v20 : S32x256.Idx → EReal) (funext fun a => Fin.ext ?_)
    match a with
    | ⟨0, _⟩ => show win1_1.index t (0 : Fin 2) * 8 + 1 * p.val = win1_3.index t (0 : Fin 3) * 8 + 1 * p.val; omega
    | ⟨1, _⟩ => show win1_1.index t (1 : Fin 2) * 128 + 1 * q.val = win1_3.index t (1 : Fin 3) * 128 + 1 * q.val; omega
  have hsh : iblk1 V c 2 t (ix2 p q)
      = (V c main_v14 : S32x256.Idx → EReal) (ix2 ((((cfg1.win 3).blk t).view.emb (ix3 p q j)) 0 : Fin 32) ((((cfg1.win 3).blk t).view.emb (ix3 p q j)) 1 : Fin 256)) := by
    show (V c main_v14 : S32x256.Idx → EReal) (((cfg1.win 2).blk t).view.emb (ix2 p q)) = _
    refine congrArg (V c main_v14 : S32x256.Idx → EReal) (funext fun a => Fin.ext ?_)
    match a with
    | ⟨0, _⟩ => show win1_2.index t (0 : Fin 2) * 8 + 1 * p.val = win1_3.index t (0 : Fin 3) * 8 + 1 * p.val; omega
    | ⟨1, _⟩ => show win1_2.index t (1 : Fin 2) * 128 + 1 * q.val = win1_3.index t (1 : Fin 3) * 128 + 1 * q.val; omega
  unfold affine
  exact congrArg₂ (fun u v : EReal => u + v) (congrArg₂ (fun u v : EReal => u * v) hsc hx) hsh

/-- An entry of the output array is in point `t`'s block iff each coordinate is in the block's range. -/
theorem affine_mem_blk (t : Fin cfg1.N) (i : S32x256x4096.Idx) :
    i ∈ ((cfg1.win 3).blk t).view.set ↔ ∀ a : Fin 3, win1_3.index t a * S8x128x1024.size a ≤ (i a).val ∧ (i a).val < win1_3.index t a * S8x128x1024.size a + S8x128x1024.size a := by
  show i ∈ ((View.whole main_v21).slice (win1_3.rect t)).set ↔ _
  rw [View.set_slice_whole, Rect.mem_set_unit]
  exact Iff.rfl

/-- The blocks written back cover the output array: entry `(n, c, k)` is in the block of point `(n / 8, c / 128, k / 1024)`. -/
theorem affine_cover (i : S32x256x4096.Idx) :
    ∃ t : Fin cfg1.N, (cfg1.win 3).flush t = true ∧ i ∈ ((cfg1.win 3).blk t).view.set := by
  have hi0 : (i 0).val < 32 := (i 0).isLt
  have hi1 : (i 1).val < 256 := (i 1).isLt
  have hi2 : (i 2).val < 4096 := (i 2).isLt
  obtain ⟨t, ht⟩ := affine_idx_onto ⟨(i 0).val / 8, by omega⟩ ⟨(i 1).val / 128, by omega⟩ ⟨(i 2).val / 1024, by omega⟩
  have q0 : win1_3.index t (0 : Fin 3) = (i 0).val / 8 := congrFun ht 0
  have q1 : win1_3.index t (1 : Fin 3) = (i 1).val / 128 := congrFun ht 1
  have q2 : win1_3.index t (2 : Fin 3) = (i 2).val / 1024 := congrFun ht 2
  refine ⟨t, flush1_3 t, ?_⟩
  rw [affine_mem_blk]
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 128 ≤ (i 1).val ∧ (i 1).val < win1_3.index t (1 : Fin 3) * 128 + 128; omega
  | ⟨2, _⟩ => show win1_3.index t (2 : Fin 3) * 1024 ≤ (i 2).val ∧ (i 2).val < win1_3.index t (2 : Fin 3) * 1024 + 1024; omega

/-- THE OUTPUT ARRAY after the region: `affine` of the input, the scale and the shift as the region found them. -/
theorem affine_array (c : Dev nD) :
    (dat1 V c).arrAt 3 cfg1.N = affine (V c main_v0) (V c main_v20) (V c main_v14) :=
  (dat1 V c).arrAt_eq_of_cover 3 (affine (V c main_v0) (V c main_v20) (V c main_v14)) (fun t _ => affine_flushed V c t) affine_cover

end Cert.SE

end
-- ==== Proof.Excite.lean ====
/-
  The excitation as functions of the pooled array and the four parameter arrays, at the extended reals: the hidden
  layer `max (pooled · w1ᵀ + b1, 0)`, the 512 logits `hidden · w2ᵀ + b2`, the scale `1 / (1 + exp (−logits[:, :256]))` and
  the shift `logits[:, 256:]`. Both programs apply exactly these host operations, in this order, to their pooled array;
  nothing below ever looks inside them.
-/
import proofs.«168831_j13889924235857_2_alg».proof.Proof.Gen.KernelIdeal
import Idealize.ShloMosaic.PureOps.Ideal

noncomputable section

namespace Cert.SE

open Idealize.ShloMosaic Cert.KernelIdeal Cert.KernelIdeal.Facts₀ Cert.KernelIdeal.Facts

/-- The hidden layer: `max (P · w1ᵀ + b1, 0)`. -/
def hidden (P : FVec Ideal S32x256 .f32) (w1 : FVec Ideal S16x256 .f32) (b1 : FVec Ideal S16 .f32) : FVec Ideal S32x16 .f32 :=
  maximumf
    (addf (Host.dotGeneral (F := Ideal) dot_S32x256_S256x16_S32x16_1_0_0_1_n_n none P (transpose S256x16 [1, 0] w1 transposes_S16x256_S256x16_1_0))
      (broadcastInDim S32x16 ![0, 1] bcast_S1x16_S32x16_0_1 (broadcastInDim S1x16 ![1] bcast_S16_S1x16_1 b1)))
    (broadcastInDim S32x16 ![] bcast_S_S32x16 (constant (F := Ideal) S_ .f32 0x00000000#32))

/-- The 512 logits: `hidden · w2ᵀ + b2`. -/
def logits (P : FVec Ideal S32x256 .f32) (w1 : FVec Ideal S16x256 .f32) (b1 : FVec Ideal S16 .f32)
    (w2 : FVec Ideal S512x16 .f32) (b2 : FVec Ideal S512 .f32) : FVec Ideal S32x512 .f32 :=
  addf (Host.dotGeneral (F := Ideal) dot_S32x16_S16x512_S32x512_1_0_0_1_n_n none (hidden P w1 b1) (transpose S16x512 [1, 0] w2 transposes_S512x16_S16x512_1_0))
    (broadcastInDim S32x512 ![0, 1] bcast_S1x512_S32x512_0_1 (broadcastInDim S1x512 ![1] bcast_S512_S1x512_1 b2))

/-- The scale: the logistic function of the first 256 logits, spelt `1 / (1 + exp (−z))`. -/
def exciteScale (P : FVec Ideal S32x256 .f32) (w1 : FVec Ideal S16x256 .f32) (b1 : FVec Ideal S16 .f32)
    (w2 : FVec Ideal S512x16 .f32) (b2 : FVec Ideal S512 .f32) : FVec Ideal S32x256 .f32 :=
  Host.divf (F := Ideal) (broadcastInDim S32x256 ![] bcast_S_S32x256 (constant (F := Ideal) S_ .f32 0x3F800000#32))
    (addf (broadcastInDim S32x256 ![] bcast_S_S32x256 (constant (F := Ideal) S_ .f32 0x3F800000#32))
      (Host.exp (F := Ideal) (Host.negf (F := Ideal) (extractStridedSlice S32x256 ![0, 0] (logits P w1 b1 w2 b2) slices_S32x512_S32x256_0_0))))

/-- The shift: the last 256 logits. -/
def exciteShift (P : FVec Ideal S32x256 .f32) (w1 : FVec Ideal S16x256 .f32) (b1 : FVec Ideal S16 .f32)
    (w2 : FVec Ideal S512x16 .f32) (b2 : FVec Ideal S512 .f32) : FVec Ideal S32x256 .f32 :=
  extractStridedSlice S32x256 ![0, 256] (logits P w1 b1 w2 b2) slices_S32x512_S32x256_0_256

end Cert.SE

end
-- ==== Proof.HostFold.lean ====
/-
  The idealized kernel program's buffers at the segment boundaries, read back to the launch memory.

  * Before the pooling region the input `[32, 256, 64, 64]` is re-laid as `[32, 256, 4096]` (`relaid`).
  * The pooling region leaves `pooled relaid` in its output and its input as it was.
  * The host stretch between the regions computes the excitation: the scale and the shift of `pooled relaid` and the
    parameters (`exciteScale`, `exciteShift`), and touches neither the re-laid input nor the arguments.
  * The affine region leaves `affine relaid scale shift`, which the last host operation re-lays as `[32, 256, 64, 64]`.
-/
import proofs.«168831_j13889924235857_2_alg».proof.Proof.Gen.KernelIdeal.Frame
import proofs.«168831_j13889924235857_2_alg».proof.Proof.PoolArray
import proofs.«168831_j13889924235857_2_alg».proof.Proof.AffineArray
import proofs.«168831_j13889924235857_2_alg».proof.Proof.Excite
import Idealize.ShloMosaic.Lib.StableHlo.Run

set_option maxRecDepth 16384

noncomputable section

namespace Cert.SE

open Idealize.ShloMosaic Idealize.ShloMosaic.TcCoe Idealize.SL.Sem Idealize.ShloMosaic.StableHlo
open Cert.KernelIdeal Cert.KernelIdeal.Facts₀ Cert.KernelIdeal.Facts Cert.KernelIdeal.Gen

variable (m : (ℓ : Loc nD τ sig) → Buf (Elt Ideal) ℓ) (ρ : Dev nD → PrngReg)

/-- The input re-laid as `[32, 256, 4096]`. -/
def relaid (c : Dev nD) : S32x256x4096.Idx → EReal :=
  shapeCast S32x256x4096 (m ((c : Thread nD τ).loc main_arg0)) Facts₀.shapeCasts_S32x256x64x64_S32x256x4096

/-- The scale the second region is entered with, as a function of the launch memory. -/
def scaleOf (c : Dev nD) : S32x256.Idx → EReal :=
  exciteScale (pooled (relaid m c)) (m ((c : Thread nD τ).loc main_arg1)) (m ((c : Thread nD τ).loc main_arg2))
    (m ((c : Thread nD τ).loc main_arg3)) (m ((c : Thread nD τ).loc main_arg4))

/-- The shift the second region is entered with, as a function of the launch memory. -/
def shiftOf (c : Dev nD) : S32x256.Idx → EReal :=
  exciteShift (pooled (relaid m c)) (m ((c : Thread nD τ).loc main_arg1)) (m ((c : Thread nD τ).loc main_arg2))
    (m ((c : Thread nD τ).loc main_arg3)) (m ((c : Thread nD τ).loc main_arg4))

/-- The pooling region is entered with the input re-laid. -/
theorem entry0_input (c : Dev nD) : (V1 m ρ c main_v0 : S32x256x4096.Idx → EReal) = relaid m c := by
  show StableHlo.after hostOps0 (W0 m ρ c) (Proc.devRef .tc main_v0) = _
  simp only [hostOps0]
  after_results
  rfl

/-- At the pooling region's exit its output holds the pooled re-laid input. -/
theorem exit0_pooled (c : Dev nD) : (W2 m ρ c (Proc.devRef .tc main_v1) : S32x256.Idx → EReal) = pooled (relaid m c) :=
  (W2_arr m ρ c 1).trans ((pool_array (V1 m ρ) c).trans (congrArg pooled (entry0_input m ρ c)))

/-- At the pooling region's exit the re-laid input is as entered. -/
theorem exit0_input (c : Dev nD) : (W2 m ρ c (Proc.devRef .tc main_v0) : S32x256x4096.Idx → EReal) = relaid m c :=
  (W2_arr m ρ c 0).trans ((pool_input_kept (V1 m ρ) c).trans (entry0_input m ρ c))

/-- At the pooling region's exit a parameter array is as launched. -/
theorem exit0_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  simp only [hostOps0]
  after_results
theorem exit0_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  simp only [hostOps0]
  after_results
theorem exit0_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  simp only [hostOps0]
  after_results
theorem exit0_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  simp only [hostOps0]
  after_results

/-- The affine region is entered with the re-laid input untouched by the excitation's host operations. -/
theorem entry1_input (c : Dev nD) : (V5 m ρ c main_v0 : S32x256x4096.Idx → EReal) = relaid m c := by
  have h : W5 m ρ c (Proc.devRef .tc main_v0) = W2 m ρ c (Proc.devRef .tc main_v0) := by
    show StableHlo.after hostOps1_2 (StableHlo.after hostOps1_1 (StableHlo.after hostOps1 (W2 m ρ c))) (Proc.devRef .tc main_v0) = _
    simp only [hostOps1_2, hostOps1_1, hostOps1]
    after_results_simp
  exact h.trans (exit0_input m ρ c)

/-- The affine region is entered with the excitation's scale of the pooled re-laid input and the parameters. -/
theorem entry1_scale (c : Dev nD) : (V5 m ρ c main_v20 : S32x256.Idx → EReal) = scaleOf m c := by
  show StableHlo.after hostOps1_2 (StableHlo.after hostOps1_1 (StableHlo.after hostOps1 (W2 m ρ c))) (Proc.devRef .tc main_v20) = _
  simp only [hostOps1_2, hostOps1_1, hostOps1]
  after_results_simp
  rw [exit0_pooled m ρ c, exit0_arg1 m ρ c, exit0_arg2 m ρ c, exit0_arg3 m ρ c, exit0_arg4 m ρ c]
  rfl

/-- The affine region is entered with the excitation's shift of the pooled re-laid input and the parameters. -/
theorem entry1_shift (c : Dev nD) : (V5 m ρ c main_v14 : S32x256.Idx → EReal) = shiftOf m c := by
  show StableHlo.after hostOps1_2 (StableHlo.after hostOps1_1 (StableHlo.after hostOps1 (W2 m ρ c))) (Proc.devRef .tc main_v14) = _
  simp only [hostOps1_2, hostOps1_1, hostOps1]
  after_results_simp
  rw [exit0_pooled m ρ c, exit0_arg1 m ρ c, exit0_arg2 m ρ c, exit0_arg3 m ρ c, exit0_arg4 m ρ c]
  rfl

/-- At the affine region's exit its output holds the scaled and shifted re-laid input. -/
theorem exit1_output (c : Dev nD) :
    (W6 m ρ c (Proc.devRef .tc main_v21) : S32x256x4096.Idx → EReal) = affine (relaid m c) (scaleOf m c) (shiftOf m c) := by
  refine (W6_arr m ρ c 3).trans ((affine_array (V5 m ρ) c).trans ?_)
  rw [entry1_input m ρ c, entry1_scale m ρ c, entry1_shift m ρ c]

/-- THE RESULT: the last boundary's contents at the result buffer, as a function of the launch memory. -/
theorem result_value (c : Dev nD) :
    (W7 m ρ c (Proc.devRef .tc main_v22) : S32x256x64x64.Idx → EReal)
      = shapeCast S32x256x64x64 (affine (relaid m c) (scaleOf m c) (shiftOf m c)) Facts₀.shapeCasts_S32x256x4096_S32x256x64x64 := by
  show StableHlo.after hostOps2 (W6 m ρ c) (Proc.devRef .tc main_v22) = _
  simp only [hostOps2]
  after_results
  rw [exit1_output m ρ c]
  rfl

end Cert.SE

end
-- ==== Proof.Consts.lean ====
/-
  The two float words of the mean, as the extended reals they denote: `4096.0` is the real 4096 and `2.44140625e-4` is
  exactly 1 / 4096 (both are powers of two, so nothing is rounded).
-/
import Idealize.ShloMosaic.PureOps.Ideal

noncomputable section

namespace Cert.SE.Consts

open Idealize.ShloMosaic

/-- The word `0x45800000` (4096.0) denotes the real 4096. -/
theorem ofBits_4096 : Ideal.ofBits .f32 0x45800000#32 = ((4096 : ℝ) : EReal) := by
  simp [Ideal.ofBits, Ideal.ieee, -EReal.coe_mul]; norm_num

/-- The word `0x39800000` (2⁻¹²) denotes the real 1 / 4096. -/
theorem ofBits_inv4096 : Ideal.ofBits .f32 0x39800000#32 = ((1 / 4096 : ℝ) : EReal) := by
  simp [Ideal.ofBits, Ideal.ieee, -EReal.coe_mul]; norm_num

/-- The zero word denotes 0. -/
theorem ofBits_zero : Ideal.ofBits .f32 0x00000000#32 = 0 := by
  simp [Ideal.ofBits, Ideal.ieee]

end Cert.SE.Consts

end
-- ==== Proof.Bridge.lean ====
/-
  The two programs' arithmetic is one function of the input, at the extended reals.

  * THE MEAN. The kernel sums the 4096 positions of row `(n, c)` of the re-laid input and multiplies by 2⁻¹²; the reference
    sums `x (n, c, ·, ·)` over both spatial axes from 0 and divides by 4096. Position `k` of the re-laid row is `(k / 64, k % 64)`,
    so the two sums have the same terms; and on EVERY extended real, division by the real 4096 is the product with
    1 / 4096 (`Ideal.div_coe`). No entry needs to be finite.
  * THE AFFINE STEP. The kernel forms `scale (n, c) · x3 (n, c, k) + shift (n, c)` on the re-laid input and re-lays the result
    as `[32, 256, 64, 64]`; the reference broadcasts scale and shift through `[32, 256, 1, 1]` to the input's shape and forms
    `scale · x + shift` there. Entry `(n, c, p, q)` of either is `scale (n, c) · x (n, c, p, q) + shift (n, c)`.
  * TOGETHER (`result_eq_reference`): with the excitation applied to the pooled array on one side and to the mean on the other,
    the two results are equal.
-/
import proofs.«168831_j13889924235857_2_alg».proof.Proof.PoolArray
import proofs.«168831_j13889924235857_2_alg».proof.Proof.AffineArray
import proofs.«168831_j13889924235857_2_alg».proof.Proof.Excite
import proofs.«168831_j13889924235857_2_alg».proof.Proof.LibFusedAxis
import proofs.«168831_j13889924235857_2_alg».proof.Proof.Consts
import Idealize.ShloMosaic.PureOps.Ideal.Laws
import Idealize.ShloMosaic.Lib.Pipeline.Value

noncomputable section

namespace Cert.SE

open Idealize.ShloMosaic Idealize.ShloMosaic.ValueIdx Cert.KernelIdeal

/-- `[32, 256, 1, 1]`: the shape through which the reference broadcasts a per-row quantity. -/
abbrev S32x256x1x1 : Shape := ⟨4, ![32, 256, 1, 1]⟩

/-- THE MEAN: the pooled re-laid input is the host's sum over both spatial axes divided by 4096. -/
theorem pooled_eq_mean (x : FVec Ideal S32x256x64x64 .f32) (hc : S32x256x64x64.ShapeCasts S32x256x4096)
    (hr : S32x256x64x64.ReducesTo [2, 3] S32x256) (hS : 0 < S_.numel) (hb : S_.BroadcastsInDim S32x256 ![]) :
    pooled (shapeCast S32x256x4096 x hc)
      = Host.divf (F := Ideal) (Host.reduceAdd (F := Ideal) x (constant (F := Ideal) S_ .f32 0x00000000#32) hr hS)
          (broadcastInDim S32x256 ![] hb (constant (F := Ideal) S_ .f32 0x45800000#32)) := by
  funext i
  obtain ⟨n, c, rfl⟩ : ∃ (n : Fin 32) (c : Fin 256), i = ix2 n c := ⟨i 0, i 1, eq_ix2 i⟩
  show (∑ j : Fin 4096, shapeCast S32x256x4096 x hc (ix3 n c j)) * Ideal.ofBits .f32 0x39800000#32
    = Ideal.div (Ideal.hostReduceAdd hr x (Ideal.ofBits .f32 0x00000000#32) (ix2 n c)) (Ideal.ofBits .f32 0x45800000#32)
  rw [Cert.Lib.FusedAxis.hostReduceAdd_last2 (a := 32) (b := 256) (h := 64) (w := 64) hr x _ n c,
    Consts.ofBits_zero, zero_add, Consts.ofBits_4096, Consts.ofBits_inv4096,
    Ideal.div_coe (by norm_num : (4096 : ℝ) ≠ 0)]
  refine congrArg (· * ((1 / 4096 : ℝ) : EReal)) ?_
  refine (Cert.Lib.FusedAxis.sum_fused (h := 64) (w := 64) (fun k => shapeCast S32x256x4096 x hc (ix3 n c k))).trans ?_
  exact Finset.sum_congr rfl fun p _ => Finset.sum_congr rfl fun q _ =>
    Cert.Lib.FusedAxis.shapeCast_fuse_apply (a := 32) (b := 256) (h := 64) (w := 64) (hw := 4096) x hc n c p q _ rfl rfl

/-- THE AFFINE STEP: scaling and shifting the re-laid input and re-laying the result back is scaling and shifting the
    input by the row quantities broadcast to its shape. -/
theorem relay_affine (x : FVec Ideal S32x256x64x64 .f32) (SC SH : FVec Ideal S32x256 .f32)
    (hc : S32x256x64x64.ShapeCasts S32x256x4096) (hc' : S32x256x4096.ShapeCasts S32x256x64x64)
    (hb2 : S32x256.BroadcastsInDim S32x256x1x1 ![0, 1]) (hb4 : S32x256x1x1.BroadcastsInDim S32x256x64x64 ![0, 1, 2, 3]) :
    shapeCast S32x256x64x64 (affine (shapeCast S32x256x4096 x hc) SC SH) hc'
      = addf (mulf (broadcastInDim S32x256x64x64 ![0, 1, 2, 3] hb4 (broadcastInDim S32x256x1x1 ![0, 1] hb2 SC)) x)
          (broadcastInDim S32x256x64x64 ![0, 1, 2, 3] hb4 (broadcastInDim S32x256x1x1 ![0, 1] hb2 SH)) := by
  funext i
  obtain ⟨n, c, p, q, rfl⟩ : ∃ (n : Fin 32) (c : Fin 256) (p : Fin 64) (q : Fin 64), i = ix4 n c p q :=
    ⟨i 0, i 1, i 2, i 3, eq_ix4 i⟩
  have hrow : ∀ Y : FVec Ideal S32x256 .f32,
      broadcastInDim S32x256x64x64 ![0, 1, 2, 3] hb4 (broadcastInDim S32x256x1x1 ![0, 1] hb2 Y) (ix4 n c p q) = Y (ix2 n c) := fun Y =>
    (broadcastInDim_apply ![0, 1, 2, 3] hb4 _ (ix4 n c p q) (ix4 n c (0 : Fin 1) (0 : Fin 1)) (fun a => by
      match a with
      | ⟨0, _⟩ => rfl
      | ⟨1, _⟩ => rfl
      | ⟨2, _⟩ => rfl
      | ⟨3, _⟩ => rfl)).trans
    (broadcastInDim_apply ![0, 1] hb2 Y (ix4 n c (0 : Fin 1) (0 : Fin 1)) (ix2 n c) (fun a => by
      match a with
      | ⟨0, _⟩ => rfl
      | ⟨1, _⟩ => rfl))
  show _ = broadcastInDim S32x256x64x64 ![0, 1, 2, 3] hb4 (broadcastInDim S32x256x1x1 ![0, 1] hb2 SC) (ix4 n c p q) * x (ix4 n c p q)
      + broadcastInDim S32x256x64x64 ![0, 1, 2, 3] hb4 (broadcastInDim S32x256x1x1 ![0, 1] hb2 SH) (ix4 n c p q)
  rw [hrow SC, hrow SH]
  refine (Cert.Lib.FusedAxis.shapeCast_split_apply (a := 32) (b := 256) (h := 64) (w := 64) (hw := 4096) _ hc' n c p q
    ⟨p.val * 64 + q.val, by have := p.isLt; have := q.isLt; omega⟩ rfl rfl).trans ?_
  show SC (ix2 n c) * shapeCast S32x256x4096 x hc (ix3 n c ⟨p.val * 64 + q.val, _⟩) + SH (ix2 n c) = _
  rw [Cert.Lib.FusedAxis.shapeCast_fuse_apply (a := 32) (b := 256) (h := 64) (w := 64) (hw := 4096) x hc n c p q _ rfl rfl]

/-- THE TWO RESULTS ARE ONE: the kernel program's result — the affine step on the re-laid input with the excitation of the
    pooled array, re-laid back — is the reference's `scale · x + shift` with the excitation of the mean. -/
theorem result_eq_reference (x : FVec Ideal S32x256x64x64 .f32) (w1 : FVec Ideal S16x256 .f32) (b1 : FVec Ideal S16 .f32)
    (w2 : FVec Ideal S512x16 .f32) (b2 : FVec Ideal S512 .f32)
    (hc : S32x256x64x64.ShapeCasts S32x256x4096) (hc' : S32x256x4096.ShapeCasts S32x256x64x64)
    (hr : S32x256x64x64.ReducesTo [2, 3] S32x256) (hS : 0 < S_.numel) (hb : S_.BroadcastsInDim S32x256 ![])
    (hb2 : S32x256.BroadcastsInDim S32x256x1x1 ![0, 1]) (hb4 : S32x256x1x1.BroadcastsInDim S32x256x64x64 ![0, 1, 2, 3]) :
    shapeCast S32x256x64x64 (affine (shapeCast S32x256x4096 x hc)
        (exciteScale (pooled (shapeCast S32x256x4096 x hc)) w1 b1 w2 b2)
        (exciteShift (pooled (shapeCast S32x256x4096 x hc)) w1 b1 w2 b2)) hc'
      = addf (mulf (broadcastInDim S32x256x64x64 ![0, 1, 2, 3] hb4 (broadcastInDim S32x256x1x1 ![0, 1] hb2
            (exciteScale (Host.divf (F := Ideal) (Host.reduceAdd (F := Ideal) x (constant (F := Ideal) S_ .f32 0x00000000#32) hr hS)
              (broadcastInDim S32x256 ![] hb (constant (F := Ideal) S_ .f32 0x45800000#32))) w1 b1 w2 b2))) x)
          (broadcastInDim S32x256x64x64 ![0, 1, 2, 3] hb4 (broadcastInDim S32x256x1x1 ![0, 1] hb2
            (exciteShift (Host.divf (F := Ideal) (Host.reduceAdd (F := Ideal) x (constant (F := Ideal) S_ .f32 0x00000000#32) hr hS)
              (broadcastInDim S32x256 ![] hb (constant (F := Ideal) S_ .f32 0x45800000#32))) w1 b1 w2 b2))) := by
  rw [relay_affine x _ _ hc hc' hb2 hb4, pooled_eq_mean x hc hr hS hb]

end Cert.SE

end
-- ==== Proof.lean ====
/-
  Squeeze-and-excitation over `x : f32[32, 256, 64, 64]`: the mean of every channel plane, a two-layer excitation on the
  `[32, 256]` means producing a scale (a logistic function) and a shift per channel plane, and `scale · x + shift`.

  The kernel program re-lays `x` as `[32, 256, 4096]`, pools it in one region (row sums times 2⁻¹²), computes the excitation on
  the host, applies `scale · x + shift` in a second region and re-lays the result; the reference takes `sum / 4096` over
  both spatial axes, the same excitation, and broadcasts scale and shift to `x`'s shape. At the extended reals:

  * each region's output array is one whole-array function of what the region found (PoolArray, AffineArray), and the
    host stretches between them read back to the launch memory (HostFold), so the kernel program's result is
    `re-lay (affine (re-laid x) (scale of pooled) (shift of pooled))` (KernelRun + HostFold);
  * the pooled array IS the reference's mean — the same 4096 terms, and division by 4096 is multiplication by 1 / 4096 on
    every extended real — and the affine step re-laid IS the broadcast form, entry by entry (Bridge);
  * the excitation is the same host operations on both sides and is never opened (Excite).

  No step needs an entry to be finite, so the precondition is not used. The idealization rewrote nothing, so
  `preserves` is trivial. The three frames are the generated ones (the reference's is its run with the result dropped).
-/
import proofs.«168831_j13889924235857_2_alg».proof.Defs
import proofs.«168831_j13889924235857_2_alg».proof.Proof.Gen.Kernel
import proofs.«168831_j13889924235857_2_alg».proof.Proof.Gen.Kernel.Frame
import proofs.«168831_j13889924235857_2_alg».proof.Proof.Gen.KernelIdeal
import proofs.«168831_j13889924235857_2_alg».proof.Proof.Gen.KernelIdeal.Frame
import proofs.«168831_j13889924235857_2_alg».proof.Proof.Gen.ReferenceIdeal
import proofs.«168831_j13889924235857_2_alg».proof.Proof.Gen.ReferenceIdeal.Run
import proofs.«168831_j13889924235857_2_alg».proof.Proof.Gen.Pre_finite_inputs
import proofs.«168831_j13889924235857_2_alg».proof.Proof.KernelRun
import proofs.«168831_j13889924235857_2_alg».proof.Proof.HostFold
import proofs.«168831_j13889924235857_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result `re-lay (affine (re-laid x) scale shift)` of the same launch contents: the kernel's
    by its run and the fold of its boundaries, the reference's run term by the two equations of Bridge, with the excitation's
    host operations matched as they stand. -/
theorem algebraic : Cert.algebraic_KernelIdeal_ReferenceIdeal := by
  intro m ρ m' ρ' _ hagree
  refine ⟨fun c => shapeCast Cert.KernelIdeal.S32x256x64x64
      (Cert.SE.affine (Cert.SE.relaid m c) (Cert.SE.scaleOf m c) (Cert.SE.shiftOf m c))
      Cert.KernelIdeal.Facts₀.shapeCasts_S32x256x4096_S32x256x64x64, ?_, ?_⟩
  · exact (θ_run Cert.KernelIdeal.defs _ _).mono
      (fun r h c => ⟨(h c).1.trans (Cert.SE.result_value m ρ c), (h c).2⟩) (Cert.SE.kernel_run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.SE.result_eq_reference
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      Cert.KernelIdeal.Facts₀.shapeCasts_S32x256x64x64_S32x256x4096
      Cert.KernelIdeal.Facts₀.shapeCasts_S32x256x4096_S32x256x64x64
      Cert.ReferenceIdeal.Facts₀.reducesTo_S32x256x64x64_S32x256_d2_3 Cert.ReferenceIdeal.Facts₀.h_S_
      Cert.ReferenceIdeal.Facts₀.bcast_S_S32x256
      Cert.ReferenceIdeal.Facts₀.bcast_S32x256_S32x256x1x1_0_1
      Cert.ReferenceIdeal.Facts₀.bcast_S32x256x1x1_S32x256x64x64_0_1_2_3).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
